-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_arg6 : FVec F S64x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x64 .f32) (main_arg5 : FVec F S64 .f32) (main_arg6 : FVec F S64x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S10000x128 : Shape := ⟨2, ![10000, 128]⟩
abbrev S850000x128 : Shape := ⟨2, ![850000, 128]⟩
abbrev S1x128 : Shape := ⟨2, ![1, 128]⟩
abbrev S50000x64 : Shape := ⟨2, ![50000, 64]⟩
abbrev S10000x64 : Shape := ⟨2, ![10000, 64]⟩
abbrev S850000x64 : Shape := ⟨2, ![850000, 64]⟩
abbrev S1x64 : Shape := ⟨2, ![1, 64]⟩

abbrev nBuf : Space → Nat
  | .hbm => 88
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x64, .f32⟩
  | .hbm, ⟨68, _⟩ => ⟨S_, .i32⟩
  | .hbm, ⟨69, _⟩ => ⟨S850000, .i32⟩
  | .hbm, ⟨70, _⟩ => ⟨S850000, .i1⟩
  | .hbm, ⟨71, _⟩ => ⟨S_, .i32⟩
  | .hbm, ⟨72, _⟩ => ⟨S850000, .i32⟩
  | .hbm, ⟨73, _⟩ => ⟨S850000, .i32⟩
  | .hbm, ⟨74, _⟩ => ⟨S850000, .i32⟩
  | .hbm, ⟨75, _⟩ => ⟨S850000x1, .i32⟩
  | .hbm, ⟨76, _⟩ => ⟨S850000x64, .f32⟩
  | .hbm, ⟨77, _⟩ => ⟨S850000x1, .f32⟩
  | .hbm, ⟨78, _⟩ => ⟨S850000x64, .f32⟩
  | .hbm, ⟨79, _⟩ => ⟨S850000x64, .f32⟩
  | .hbm, ⟨80, _⟩ => ⟨S_, .f32⟩
  | .hbm, ⟨81, _⟩ => ⟨S50000x64, .f32⟩
  | .hbm, ⟨82, _⟩ => ⟨S850000x1, .i32⟩
  | .hbm, ⟨83, _⟩ => ⟨S50000x64, .f32⟩
  | .hbm, ⟨84, _⟩ => ⟨S1x64, .f32⟩
  | .hbm, ⟨85, _⟩ => ⟨S50000x64, .f32⟩
  | .hbm, ⟨86, _⟩ => ⟨S1x64, .f32⟩
  | .hbm, ⟨87, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x64_S10000x64_1_0_0_1_n_n_wf : DotDims.WF S10000x128 S128x64 S10000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .f32 = 32 ∨ (Rect.block (s := S50000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S50000x64.size a
  hwx2_2 : ∀ i : grid2.Coords, EltTy.bits .f32 = 32 ∨ (Rect.block (s := S50000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S50000x64.size a
  hwx3_0 : ∀ i : grid3.Coords, EltTy.bits .f32 = 32 ∨ (Rect.block (s := S50000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S50000x64.size a
  hwx3_2 : ∀ i : grid3.Coords, EltTy.bits .f32 = 32 ∨ (Rect.block (s := S50000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S50000x64.size a
  hwx4_0 : ∀ i : grid4.Coords, EltTy.bits .f32 = 32 ∨ (Rect.block (s := S50000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S50000x64.size a
  hwx4_3 : ∀ i : grid4.Coords, EltTy.bits .f32 = 32 ∨ (Rect.block (s := S50000x64) S10000x64.size (cc4_transform_3 i) (hinb4_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 98
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000, .f32⟩
  | .hbm, ⟨47, _⟩ => ⟨S850000, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x64, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x64, .f32⟩
  | .hbm, ⟨81, _⟩ => ⟨S850000x1, .f32⟩
  | .hbm, ⟨82, _⟩ => ⟨S850000x64, .f32⟩
  | .hbm, ⟨83, _⟩ => ⟨S850000x64, .f32⟩
  | .hbm, ⟨84, _⟩ => ⟨S_, .f32⟩
  | .hbm, ⟨85, _⟩ => ⟨S50000x64, .f32⟩
  | .hbm, ⟨86, _⟩ => ⟨S850000x1, .i32⟩
  | .hbm, ⟨87, _⟩ => ⟨S50000x64, .f32⟩
  | .hbm, ⟨88, _⟩ => ⟨S1x64, .f32⟩
  | .hbm, ⟨89, _⟩ => ⟨S50000x64, .f32⟩
  | .hbm, ⟨90, _⟩ => ⟨S50000x64, .f32⟩
  | .hbm, ⟨91, _⟩ => ⟨S_, .f32⟩
  | .hbm, ⟨92, _⟩ => ⟨S50000x64, .f32⟩
  | .hbm, ⟨93, _⟩ => ⟨S50000x64, .f32⟩
  | .hbm, ⟨94, _⟩ => ⟨S50000x64, .f32⟩
  | .hbm, ⟨95, _⟩ => ⟨S1x64, .f32⟩
  | .hbm, ⟨96, _⟩ => ⟨S50000x64, .f32⟩
  | .hbm, ⟨97, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The kernel program's run with its result named. The program is five kernel regions among stretches of host
  operations; the contents of every unscoped buffer at each boundary are a fold from the launch memory (`Gen.W0` … `Gen.W11`),
  and every weakly fair execution ends with each such buffer at the last boundary's contents `Gen.W11`. The frame
  states this only for the arguments; here the same launch is read once more at the result buffer as well, so that
  the value proof can open `Gen.W11` there.
-/
import proofs.«109217_j85804856639970_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- unifying the launch theorem's conclusion with this statement unfolds plain definitions inside a metavariable's type
set_option backward.isDefEq.respectTransparency.types false in
/-- Every weakly fair execution of the program terminates, nothing faulting, with the result buffer at the last
    boundary's contents and the arguments as launched. -/
theorem run_named : θ_run defs (onTc (τ := τ) (main (F := F))) ⟨m, fun _ => 0, ρ⟩ (fun r => ∀ c : Dev nD,
      r.2.mem ((c.tc : Thread nD τ).loc main_v63) = W11 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v63 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Named

end
-- ==== Proof.HostPrefix.lean ====
/-
  The host operations before the first kernel region, read back at the kernel program's boundaries.

  Before any kernel runs, the program forms from the edge list the message sources and targets (the listed edges
  followed by one loop per node) and every message's weight; the reference forms them by the same operations. Here the
  contents of those three buffers when the first region is entered are identified with the reference's stages of
  the same edge list, and every float argument is still as launched.
-/
import proofs.«109217_j85804856639970_1_alg».proof.Proof.Gen.KernelIdeal.Frame
import proofs.«109217_j85804856639970_1_alg».proof.Proof.ReadPatched
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg) (c : Dev nD)

/-! ## After the first stretch: sources, targets, and the degrees' comparison and inverse square root -/

theorem src1 : W1 m ρ c (Proc.devRef .tc main_v5) = Cert.ReferenceIdeal.ReadP.val_main_v5 (F := Ideal) (m ((c : Thread nD τ).loc main_arg1)) := by
  show StableHlo.after hostOps0 (W0 m ρ c) (Proc.devRef .tc main_v5) = _
  after_results_simp <;> rfl

theorem dst1 : W1 m ρ c (Proc.devRef .tc main_v6) = Cert.ReferenceIdeal.ReadP.val_main_v6 (F := Ideal) (m ((c : Thread nD τ).loc main_arg1)) := by
  show StableHlo.after hostOps0 (W0 m ρ c) (Proc.devRef .tc main_v6) = _
  after_results_simp <;> rfl

theorem degPos1 : W1 m ρ c (Proc.devRef .tc main_v12) = Cert.ReferenceIdeal.ReadP.val_main_v12 (F := Ideal) (m ((c : Thread nD τ).loc main_arg1)) := by
  show StableHlo.after hostOps0 (W0 m ρ c) (Proc.devRef .tc main_v12) = _
  after_results_simp <;> rfl

theorem degRsqrt1 : W1 m ρ c (Proc.devRef .tc main_v13) = Cert.ReferenceIdeal.ReadP.val_main_v13 (F := Ideal) (m ((c : Thread nD τ).loc main_arg1)) := by
  show StableHlo.after hostOps0 (W0 m ρ c) (Proc.devRef .tc main_v13) = _
  after_results_simp <;> rfl

theorem zero1 : W1 m ρ c (Proc.devRef .tc main_cst_2) = Cert.ReferenceIdeal.ReadP.val_main_cst_2 (F := Ideal) := by
  show StableHlo.after hostOps0 (W0 m ρ c) (Proc.devRef .tc main_cst_2) = _
  after_results_simp <;> rfl

/-! ## After the second stretch: the inverse square root where the degree is positive, zero elsewhere -/

section Generic
variable (Vl : Valuation τ sig (Elt Ideal))

/-- The select of the second stretch, from any three operands. -/
theorem where_gen (x12 : (⟨S50000, .i1⟩ : BufTy).Contents (Elt Ideal)) (x13 : (⟨S50000, .f32⟩ : BufTy).Contents (Elt Ideal))
    (xz : (⟨S_, .f32⟩ : BufTy).Contents (Elt Ideal))
    (h12 : Vl (Proc.devRef .tc main_v12) = x12) (h13 : Vl (Proc.devRef .tc main_v13) = x13)
    (hz : Vl (Proc.devRef .tc main_cst_2) = xz) :
    StableHlo.after hostOps0_1 Vl (Proc.devRef .tc main_v14) = select x12 x13 (broadcastInDim S50000 ![] bcast_S_S50000 (id xz)) := by
  after_results_simp
  rw [h12, h13, hz]
  rfl

theorem where_of (e : (⟨S2x800000, .i32⟩ : BufTy).Contents (Elt Ideal))
    (h12 : Vl (Proc.devRef .tc main_v12) = Cert.ReferenceIdeal.ReadP.val_main_v12 (F := Ideal) e)
    (h13 : Vl (Proc.devRef .tc main_v13) = Cert.ReferenceIdeal.ReadP.val_main_v13 (F := Ideal) e)
    (hz : Vl (Proc.devRef .tc main_cst_2) = Cert.ReferenceIdeal.ReadP.val_main_cst_2 (F := Ideal)) :
    StableHlo.after hostOps0_1 Vl (Proc.devRef .tc main_v14) = Cert.ReferenceIdeal.ReadP.val_main_v14 (F := Ideal) e :=
  (where_gen Vl _ _ _ h12 h13 hz).trans rfl

theorem keep_src_1 : StableHlo.after hostOps0_1 Vl (Proc.devRef .tc main_v5) = Vl (Proc.devRef .tc main_v5) := by
  after_results_simp
theorem keep_dst_1 : StableHlo.after hostOps0_1 Vl (Proc.devRef .tc main_v6) = Vl (Proc.devRef .tc main_v6) := by
  after_results_simp

/-! ## After the third stretch: each message's weight -/

theorem weight_of (e : (⟨S2x800000, .i32⟩ : BufTy).Contents (Elt Ideal))
    (h5 : Vl (Proc.devRef .tc main_v5) = Cert.ReferenceIdeal.ReadP.val_main_v5 (F := Ideal) e)
    (h6 : Vl (Proc.devRef .tc main_v6) = Cert.ReferenceIdeal.ReadP.val_main_v6 (F := Ideal) e)
    (h14 : Vl (Proc.devRef .tc main_v14) = Cert.ReferenceIdeal.ReadP.val_main_v14 (F := Ideal) e) :
    StableHlo.after hostOps0_2 Vl (Proc.devRef .tc main_v29) = Cert.ReferenceIdeal.ReadP.val_main_v29 (F := Ideal) e := by
  after_results_simp
  rw [h5, h6, h14]
  rfl

theorem keep_src_2 : StableHlo.after hostOps0_2 Vl (Proc.devRef .tc main_v5) = Vl (Proc.devRef .tc main_v5) := by
  after_results_simp
theorem keep_dst_2 : StableHlo.after hostOps0_2 Vl (Proc.devRef .tc main_v6) = Vl (Proc.devRef .tc main_v6) := by
  after_results_simp

end Generic

/-! ## When the first region is entered -/

theorem src : W3 m ρ c (Proc.devRef .tc main_v5) = Cert.ReferenceIdeal.ReadP.val_main_v5 (F := Ideal) (m ((c : Thread nD τ).loc main_arg1)) :=
  (keep_src_2 (W2 m ρ c)).trans ((keep_src_1 (W1 m ρ c)).trans (src1 m ρ c))

theorem dst : W3 m ρ c (Proc.devRef .tc main_v6) = Cert.ReferenceIdeal.ReadP.val_main_v6 (F := Ideal) (m ((c : Thread nD τ).loc main_arg1)) :=
  (keep_dst_2 (W2 m ρ c)).trans ((keep_dst_1 (W1 m ρ c)).trans (dst1 m ρ c))

theorem weight : W3 m ρ c (Proc.devRef .tc main_v29) = Cert.ReferenceIdeal.ReadP.val_main_v29 (F := Ideal) (m ((c : Thread nD τ).loc main_arg1)) :=
  weight_of (W2 m ρ c) _ ((keep_src_1 (W1 m ρ c)).trans (src1 m ρ c)) ((keep_dst_1 (W1 m ρ c)).trans (dst1 m ρ c))
    (where_of (W1 m ρ c) _ (degPos1 m ρ c) (degRsqrt1 m ρ c) (zero1 m ρ c))

theorem arg0 : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp <;> rfl

theorem arg2 : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp <;> rfl

theorem arg3 : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp <;> rfl

theorem arg4 : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp <;> rfl

theorem arg5 : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp <;> rfl

theorem arg6 : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results_simp <;> rfl

theorem arg7 : W3 m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results_simp <;> rfl

end Cert.KernelIdeal.HostPrefix

end
-- ==== Proof.GcnSpec.lean ====
/-
  The arithmetic of a two-layer graph convolution, on the extended reals, index by index.

  A dense layer sends a table `x` of `n` rows and a weight matrix `w` to the table whose entry `(r, q)` is the
  sum over `j` of `x (r, j) · w (j, q)`. A bias row `b` (kept as a `1 × d` matrix, the form in which a kernel is
  handed it) is added to every row, and the rectifier takes the larger of the sum and the value the all-zero
  word denotes. Nothing here distributes a product over a sum or cancels anything: the same operations in the same
  order are read on both sides, so no entry has to be finite.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- A table of `n` rows of `k` features. -/
abbrev Tab (n k : Nat) : Type := (⟨2, ![n, k]⟩ : Shape).Idx → EReal

/-- The row of an index, as a number below the table's height. -/
abbrev rowOf {n k : Nat} (i : (⟨2, ![n, k]⟩ : Shape).Idx) : Fin n := ⟨(i 0).val, idx2_lt0 i⟩
/-- The column of an index, as a number below the table's width. -/
abbrev colOf {n k : Nat} (i : (⟨2, ![n, k]⟩ : Shape).Idx) : Fin k := ⟨(i 1).val, idx2_lt1 i⟩

/-- The dense layer: entry `(r, q)` is `∑ j, x (r, j) · w (j, q)`. -/
def dense {n k d : Nat} (x : Tab n k) (w : Tab k d) : Tab n d :=
  fun i => ∑ j : Fin k, x (ix2 (rowOf i) j) * w (ix2 j (colOf i))

/-- A bias row added to every row of a table. -/
def addRow {n d : Nat} (a : Tab n d) (b : Tab 1 d) : Tab n d :=
  fun i => a i + b (ix2 (0 : Fin 1) (colOf i))

/-- The rectifier against the value of the all-zero word. -/
def relu {n d : Nat} (a : Tab n d) : Tab n d :=
  fun i => max (a i) (Ideal.ofBits .f32 0x00000000#32)

/-- Bias, then rectifier: the epilogue of a convolution layer. -/
def biasRelu {n d : Nat} (a : Tab n d) (b : Tab 1 d) : Tab n d := relu (addRow a b)

/-- The last layer: dense, then bias. -/
def denseBias {n k d : Nat} (x : Tab n k) (w : Tab k d) (b : Tab 1 d) : Tab n d := addRow (dense x w) b

theorem dense_apply {n k d : Nat} (x : Tab n k) (w : Tab k d) (i : (⟨2, ![n, d]⟩ : Shape).Idx) :
    dense x w i = ∑ j : Fin k, x (ix2 (rowOf i) j) * w (ix2 j (colOf i)) := rfl

theorem biasRelu_apply {n d : Nat} (a : Tab n d) (b : Tab 1 d) (i : (⟨2, ![n, d]⟩ : Shape).Idx) :
    biasRelu a b i = max (a i + b (ix2 (0 : Fin 1) (colOf i))) (Ideal.ofBits .f32 0x00000000#32) := rfl

theorem denseBias_apply {n k d : Nat} (x : Tab n k) (w : Tab k d) (b : Tab 1 d) (i : (⟨2, ![n, d]⟩ : Shape).Idx) :
    denseBias x w b i = (∑ j : Fin k, x (ix2 (rowOf i) j) * w (ix2 j (colOf i))) + b (ix2 (0 : Fin 1) (colOf i)) := rfl

end Cert.Gcn

end
-- ==== Proof.Aggregate.lean ====
/-
  The irregular part of a graph convolution, kept as one function on each of its two widths.

  From the edge list the host forms, once, the source and target node of every message (the listed edges followed by
  one loop per node) and the message's weight — the product of the inverse square roots of the two nodes' degrees,
  zero where a degree is not positive. A layer's aggregation gathers the rows of a table at the sources, scales each
  by its message's weight, and adds them up at the targets. Both programs apply exactly these host operations to the
  same edge list, so the aggregation is never opened: it is named here over the reference's stages, and the value
  proof only needs that it is applied to equal tables.

  Beside it: a bias vector read as a one-row matrix, and the whole forward function over these pieces.
-/
import proofs.«109217_j85804856639970_1_alg».proof.Proof.ReadPatched
import proofs.«109217_j85804856639970_1_alg».proof.Proof.GcnSpec

noncomputable section

namespace Cert.Gcn

open Idealize.ShloMosaic Idealize.ShloMosaic.ValueIdx
open Cert.ReferenceIdeal Cert.ReferenceIdeal.ReadP

/-- The edge list: two rows of 800000 node numbers. -/
abbrev Edges : Type := (⟨S2x800000, .i32⟩ : BufTy).Contents (Elt Ideal)

/-- One layer's aggregation of a 128-wide table: gather at the sources, scale by the messages' weights, add up at
    the targets. -/
def agg128 (e : Edges) (h : Tab 50000 128) : Tab 50000 128 :=
  Host.scatterAdd (F := Ideal) (φ := .f32) scatter_S50000x128_S850000x1_S850000x128_1_0_0_1 (val_main_v41 (F := Ideal)) (val_main_v42 (F := Ideal) e)
    (mulf (F := Ideal) (φ := .f32) (Host.gather (α := Ideal .f32) gather_S50000x128_S850000x1_S850000x128_1_0_n_n_0_1_1128 h (val_main_v36 (F := Ideal) e)) (val_main_v39 (F := Ideal) e))

/-- The same of a 64-wide table. -/
def agg64 (e : Edges) (h : Tab 50000 64) : Tab 50000 64 :=
  Host.scatterAdd (F := Ideal) (φ := .f32) scatter_S50000x64_S850000x1_S850000x64_1_0_0_1 (val_main_v59 (F := Ideal)) (val_main_v60 (F := Ideal) e)
    (mulf (F := Ideal) (φ := .f32) (Host.gather (α := Ideal .f32) gather_S50000x64_S850000x1_S850000x64_1_0_n_n_0_1_164 h (val_main_v54 (F := Ideal) e)) (val_main_v57 (F := Ideal) e))

/-- A bias vector as a one-row matrix. -/
def rowForm {d : Nat} (b : (⟨1, ![d]⟩ : Shape).Idx → EReal) : Tab 1 d := fun i => b (ix1 (colOf i))

/-- The network: two convolution layers (dense, aggregate, bias, rectify) and a last dense layer with bias. -/
def forward (x : Tab 50000 128) (e : Edges) (w1 : Tab 128 128) (b1 : (⟨1, ![128]⟩ : Shape).Idx → EReal)
    (w2 : Tab 128 64) (b2 : (⟨1, ![64]⟩ : Shape).Idx → EReal) (w3 : Tab 64 64) (b3 : (⟨1, ![64]⟩ : Shape).Idx → EReal) : Tab 50000 64 :=
  denseBias (biasRelu (agg64 e (dense (biasRelu (agg128 e (dense x w1)) (rowForm b1)) w2)) (rowForm b2)) w3 (rowForm b3)

end Cert.Gcn

end
-- ==== Proof.Dense0.lean ====
/-
  Region 0 of the program is a dense layer over blocks of 10000 rows: at grid point `t` the body multiplies rows
  `10000·t … 10000·t + 9999` of the table by the whole weight matrix, and writes the product back as the same rows of
  the result. Read at an index, the body's matrix product into a zero accumulator is the plain sum over the shared
  axis; the five row blocks tile the 50000 rows, so after the region the result array is the dense layer of the
  table as the region found it.
-/
import proofs.«109217_j85804856639970_1_alg».proof.Proof.Gen.KernelIdeal.Frame
import proofs.«109217_j85804856639970_1_alg».proof.Proof.GcnSpec
import Idealize.ShloMosaic.Lib.Pipeline.Value
import Idealize.ShloMosaic.Lib.ValueIdx
import Idealize.ShloMosaic.PureOps.Ideal.Laws

noncomputable section

namespace Cert.KernelIdeal.Dense0

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The body's product at an index -/

theorem lhs_0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem rhs_0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem rhs_1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The body's stored value at `(r, q)` of the block: the sum over `j` of `x (r, j) · w (j, q)` — a matrix product into
    a zero accumulator, the operands' roundings to a narrower format being the identity on the extended reals. -/
theorem payload_apply (x : Vec Ideal S10000x128 .f32) (w : Vec Ideal S128x128 .f32) (y : S10000x128.Idx) :
    k0_pay1 x w y = ∑ j : Fin 128, x (ix2 (rowOf y) j) * w (ix2 j (colOf y)) := by
  unfold k0_pay1
  refine (Ideal.matmul_constant_zero_apply dot_S10000x128_S128x128_S10000x128_1_0_0_1_n_n none _ _ y).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx y ((contrEquiv1 dot_S10000x128_S128x128_S10000x128_1_0_0_1_n_n 128 rfl rfl).symm k) = ix2 (rowOf y) k := funext fun a => Fin.ext (by
    match a with
    | ⟨0, _⟩ => exact lhs_0 _ _
    | ⟨1, _⟩ => exact (lhs_1 _ _).trans hk)
  have er : dot_S10000x128_S128x128_S10000x128_1_0_0_1_n_n.rhsIdx y ((contrEquiv1 dot_S10000x128_S128x128_S10000x128_1_0_0_1_n_n 128 rfl rfl).symm k) = ix2 k (colOf y) := funext fun a => Fin.ext (by
    match a with
    | ⟨0, _⟩ => exact (rhs_0 _ _).trans hk
    | ⟨1, _⟩ => exact rhs_1 _ _)
  rw [el, er]
  rfl

/-! ## The blocks -/

/-- The printed index maps over the five grid points: the table's and the result's block is row block `t`, the
    weights' block is the whole matrix. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The table's block at point `t` holds rows `10000·t + r` of the table. -/
theorem table_block (c : Dev nD) (t : Fin cfg0.N) (z : S10000x128.Idx) (k : S50000x128.Idx)
    (h0 : (k 0).val = 10000 * t.val + (z 0).val) (h1 : (k 1).val = (z 1).val) :
    (iblk0 V c 0 t : Vec Ideal S10000x128 .f32) z = (V c main_arg0 : S50000x128.Idx → EReal) k := by
  obtain ⟨e0, e1, -, -, -, -⟩ := idx_facts t
  unfold iblk0
  rw [View.read_apply]
  show V c main_arg0 _ = V c main_arg0 _
  refine congrArg (V c main_arg0) ?_
  funext a
  apply Fin.ext
  match a with
  | ⟨0, _⟩ => show win0_0.index t (0 : Fin 2) * 10000 + 1 * (z 0).val = (k 0).val; rw [e0, h0]; omega
  | ⟨1, _⟩ => show win0_0.index t (1 : Fin 2) * 128 + 1 * (z 1).val = (k 1).val; rw [e1, h1]; omega

/-- The weights' block at every point is the whole matrix. -/
theorem weight_block (c : Dev nD) (t : Fin cfg0.N) (z : S128x128.Idx) :
    (iblk0 V c 1 t : Vec Ideal S128x128 .f32) z = (V c main_arg2 : S128x128.Idx → EReal) z := by
  obtain ⟨-, -, e2, e3, -, -⟩ := idx_facts t
  unfold iblk0
  rw [View.read_apply]
  show V c main_arg2 _ = V c main_arg2 _
  refine congrArg (V c main_arg2) ?_
  funext a
  apply Fin.ext
  match a with
  | ⟨0, _⟩ => show win0_1.index t (0 : Fin 2) * 128 + 1 * (z 0).val = (z 0).val; rw [e2]; omega
  | ⟨1, _⟩ => show win0_1.index t (1 : Fin 2) * 128 + 1 * (z 1).val = (z 1).val; rw [e3]; omega

/-- What point `t` writes back is row block `t` of the dense layer of the table and the weights. -/
theorem flushed_eq (c : Dev nD) (t : Fin cfg0.N) :
    (dat0 V c).flushed 2 t = ((cfg0.win 2).blk t).view.read (Elt Ideal) (dense (V c main_arg0) (V c main_arg2) : S50000x128.Idx → EReal) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨-, -, -, -, e4, e5⟩ := idx_facts t
  funext y
  show k0_pay1 (iblk0 V c 0 t) (iblk0 V c 1 t) y = dense (V c main_arg0) (V c main_arg2) (((cfg0.win 2).blk t).view.emb y)
  refine (payload_apply _ _ y).trans ?_
  rw [dense_apply]
  refine Finset.sum_congr rfl fun j _ => ?_
  have hr : ((((cfg0.win 2).blk t).view.emb y) 0).val = 10000 * t.val + (y 0).val := by
    show win0_2.index t (0 : Fin 2) * 10000 + 1 * (y 0).val = _; rw [e4]; omega
  have hc : ((((cfg0.win 2).blk t).view.emb y) 1).val = (y 1).val := by
    show win0_2.index t (1 : Fin 2) * 128 + 1 * (y 1).val = _; rw [e5]; omega
  have hq : (ix2 j (colOf y) : S128x128.Idx) = ix2 j (colOf (((cfg0.win 2).blk t).view.emb y)) := by
    funext a
    apply Fin.ext
    match a with
    | ⟨0, _⟩ => rfl
    | ⟨1, _⟩ => exact hc.symm
  rw [table_block V c t (ix2 (rowOf y) j) (ix2 (rowOf (((cfg0.win 2).blk t).view.emb y)) j) hr rfl,
    weight_block V c t (ix2 j (colOf y)), hq]

/-- Every row of the result lies in some point's block: row `r` in that of point `r / 10000`. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 5 := N_0
  let t : Fin cfg0.N := ⟨(i 0).val / 10000, by rw [hN]; omega⟩
  obtain ⟨-, -, -, -, e4, e5⟩ := idx_facts t
  have e4' : win0_2.index t (0 : Fin 2) = (i 0).val / 10000 := e4
  refine ⟨t, flush0_2 t, ?_⟩
  show i ∈ ((View.whole main_v30).slice (win0_2.rect t)).set
  rw [View.set_slice_whole, Rect.mem_set_unit]
  intro a
  match a with
  | ⟨0, _⟩ => show win0_2.index t (0 : Fin 2) * 10000 ≤ (i 0).val ∧ (i 0).val < win0_2.index t (0 : Fin 2) * 10000 + 10000; rw [e4']; omega
  | ⟨1, _⟩ => show win0_2.index t (1 : Fin 2) * 128 ≤ (i 1).val ∧ (i 1).val < win0_2.index t (1 : Fin 2) * 128 + 128; rw [e5]; omega

/-- After the region the result array is the dense layer of the table and the weights as the region found them. -/
theorem final (c : Dev nD) :
    (dat0 V c).arrAt 2 cfg0.N = (dense (V c main_arg0) (V c main_arg2) : S50000x128.Idx → EReal) :=
  (dat0 V c).arrAt_eq_of_cover 2 _ (fun t _ => flushed_eq V c t) cover

end Cert.KernelIdeal.Dense0

end
-- ==== Proof.Bias1.lean ====
/-
  Region 1 of the program adds a bias row to a table and rectifies, over blocks of 10000 rows: at grid point `t` the
  body reads rows `10000·t … 10000·t + 9999` of the table and the whole `1 × 128` bias, stores the larger of their sum
  and the value of the all-zero word, and the block is written back as the same rows of the result. The five row
  blocks tile the 50000 rows, so after the region the result array is the epilogue of the table as the region
  found it.
-/
import proofs.«109217_j85804856639970_1_alg».proof.Proof.Gen.KernelIdeal.Frame
import proofs.«109217_j85804856639970_1_alg».proof.Proof.GcnSpec
import Idealize.ShloMosaic.Lib.Pipeline.Value
import Idealize.ShloMosaic.Lib.ValueIdx
import Idealize.ShloMosaic.Lib.ValueLayout

noncomputable section

namespace Cert.KernelIdeal.Bias1

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at `(p, q)` of the block: the larger of `x (p, q) + b (0, q)` and the value of the all-zero
    word (the casts to the same shape are the identity, the bias row is read at every row). -/
theorem payload_apply (b : Vec Ideal S1x128 .f32) (x : Vec Ideal S10000x128 .f32) (y : S10000x128.Idx) :
    k1_pay1 b x y = max (x y + b (ix2 (0 : Fin 1) (colOf y))) (Ideal.ofBits .f32 0x00000000#32) := by
  obtain ⟨p, q, rfl⟩ : ∃ (p : Fin 10000) (q : Fin 128), y = ix2 p q := ⟨y 0, y 1, eq_ix2 y⟩
  have hb : broadcastTo S10000x128 b broadcasts_S1x128_S10000x128 (ix2 p q) = b (ix2 (0 : Fin 1) q) :=
    broadcastTo_1b_ab_apply b _ p q
  unfold k1_pay1
  simp only [shapeCast_self]
  show max (x (ix2 p q) + broadcastTo S10000x128 b broadcasts_S1x128_S10000x128 (ix2 p q)) _ = _
  rw [hb]
  rfl

/-! ## The blocks -/

/-- The printed index maps over the five grid points: the table's and the result's block is row block `t`, the
    bias's block is the whole row. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The table's block at point `t` holds rows `10000·t + r` of the table. -/
theorem table_block (c : Dev nD) (t : Fin cfg1.N) (z : S10000x128.Idx) (k : S50000x128.Idx)
    (h0 : (k 0).val = 10000 * t.val + (z 0).val) (h1 : (k 1).val = (z 1).val) :
    (iblk1 V c 0 t : Vec Ideal S10000x128 .f32) z = (V c main_v43 : S50000x128.Idx → EReal) k := by
  obtain ⟨e0, e1, -, -, -, -⟩ := idx_facts t
  unfold iblk1
  rw [View.read_apply]
  show V c main_v43 _ = V c main_v43 _
  refine congrArg (V c main_v43) ?_
  funext a
  apply Fin.ext
  match a with
  | ⟨0, _⟩ => show win1_0.index t (0 : Fin 2) * 10000 + 1 * (z 0).val = (k 0).val; rw [e0, h0]; omega
  | ⟨1, _⟩ => show win1_0.index t (1 : Fin 2) * 128 + 1 * (z 1).val = (k 1).val; rw [e1, h1]; omega

/-- The bias's block at every point is the whole row. -/
theorem bias_block (c : Dev nD) (t : Fin cfg1.N) (z : S1x128.Idx) :
    (iblk1 V c 1 t : Vec Ideal S1x128 .f32) z = (V c main_v44 : S1x128.Idx → EReal) z := by
  obtain ⟨-, -, e2, e3, -, -⟩ := idx_facts t
  unfold iblk1
  rw [View.read_apply]
  show V c main_v44 _ = V c main_v44 _
  refine congrArg (V c main_v44) ?_
  funext a
  apply Fin.ext
  match a with
  | ⟨0, _⟩ => show win1_1.index t (0 : Fin 2) * 1 + 1 * (z 0).val = (z 0).val; rw [e2]; omega
  | ⟨1, _⟩ => show win1_1.index t (1 : Fin 2) * 128 + 1 * (z 1).val = (z 1).val; rw [e3]; omega

/-- What point `t` writes back is row block `t` of the epilogue of the table and the bias. -/
theorem flushed_eq (c : Dev nD) (t : Fin cfg1.N) :
    (dat1 V c).flushed 2 t = ((cfg1.win 2).blk t).view.read (Elt Ideal) (biasRelu (V c main_v43) (V c main_v44) : S50000x128.Idx → EReal) := by
  show (cfg1.win 2).cut (grid1.coords t) ((dat1 V c).after 2 t) = _
  rw [after1_2]
  unfold out1_2
  rw [View.canon_unit_zero hz]
  simp only [View.ld_unit_zero (S := S10000x128) hz, View.ld_unit_zero (S := S1x128) hz]
  obtain ⟨-, -, -, -, e4, e5⟩ := idx_facts t
  funext y
  show k1_pay1 (iblk1 V c 1 t) (iblk1 V c 0 t) y = biasRelu (V c main_v43) (V c main_v44) (((cfg1.win 2).blk t).view.emb y)
  refine (payload_apply _ _ y).trans ?_
  rw [biasRelu_apply]
  have hr : ((((cfg1.win 2).blk t).view.emb y) 0).val = 10000 * t.val + (y 0).val := by
    show win1_2.index t (0 : Fin 2) * 10000 + 1 * (y 0).val = _; rw [e4]; omega
  have hc : ((((cfg1.win 2).blk t).view.emb y) 1).val = (y 1).val := by
    show win1_2.index t (1 : Fin 2) * 128 + 1 * (y 1).val = _; rw [e5]; omega
  have hq : (ix2 (0 : Fin 1) (colOf y) : S1x128.Idx) = ix2 (0 : Fin 1) (colOf (((cfg1.win 2).blk t).view.emb y)) := by
    funext a
    apply Fin.ext
    match a with
    | ⟨0, _⟩ => rfl
    | ⟨1, _⟩ => exact hc.symm
  rw [table_block V c t y (((cfg1.win 2).blk t).view.emb y) hr hc, bias_block V c t (ix2 (0 : Fin 1) (colOf y)), hq]

/-- Every row of the result lies in some point's block: row `r` in that of point `r / 10000`. -/
theorem cover (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 5 := N_1
  let t : Fin cfg1.N := ⟨(i 0).val / 10000, by rw [hN]; omega⟩
  obtain ⟨-, -, -, -, e4, e5⟩ := idx_facts t
  have e4' : win1_2.index t (0 : Fin 2) = (i 0).val / 10000 := e4
  refine ⟨t, flush1_2 t, ?_⟩
  show i ∈ ((View.whole main_v45).slice (win1_2.rect t)).set
  rw [View.set_slice_whole, Rect.mem_set_unit]
  intro a
  match a with
  | ⟨0, _⟩ => show win1_2.index t (0 : Fin 2) * 10000 ≤ (i 0).val ∧ (i 0).val < win1_2.index t (0 : Fin 2) * 10000 + 10000; rw [e4']; omega
  | ⟨1, _⟩ => show win1_2.index t (1 : Fin 2) * 128 ≤ (i 1).val ∧ (i 1).val < win1_2.index t (1 : Fin 2) * 128 + 128; rw [e5]; omega

/-- After the region the result array is the epilogue of the table and the bias as the region found them. -/
theorem final (c : Dev nD) :
    (dat1 V c).arrAt 2 cfg1.N = (biasRelu (V c main_v43) (V c main_v44) : S50000x128.Idx → EReal) :=
  (dat1 V c).arrAt_eq_of_cover 2 _ (fun t _ => flushed_eq V c t) cover

end Cert.KernelIdeal.Bias1

end
-- ==== Proof.Dense2.lean ====
/-
  Region 2 of the program is a dense layer over blocks of 10000 rows: at grid point `t` the body multiplies rows
  `10000·t … 10000·t + 9999` of the table by the whole weight matrix, and writes the product back as the same rows of
  the result. Read at an index, the body's matrix product into a zero accumulator is the plain sum over the shared
  axis; the five row blocks tile the 50000 rows, so after the region the result array is the dense layer of the
  table as the region found it.
-/
import proofs.«109217_j85804856639970_1_alg».proof.Proof.Gen.KernelIdeal.Frame
import proofs.«109217_j85804856639970_1_alg».proof.Proof.GcnSpec
import Idealize.ShloMosaic.Lib.Pipeline.Value
import Idealize.ShloMosaic.Lib.ValueIdx
import Idealize.ShloMosaic.PureOps.Ideal.Laws

noncomputable section

namespace Cert.KernelIdeal.Dense2

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The body's product at an index -/

theorem lhs_0 (i : S10000x64.Idx) (q : dot_S10000x128_S128x64_S10000x64_1_0_0_1_n_n.contr.Idx) : (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_1 (i : S10000x64.Idx) (q : dot_S10000x128_S128x64_S10000x64_1_0_0_1_n_n.contr.Idx) : (dot_S10000x128_S128x64_S10000x64_1_0_0_1_n_n.lhsIdx i q 1).val = (q ⟨0, by decide⟩).val :=
  dot_S10000x128_S128x64_S10000x64_1_0_0_1_n_n.lhsIdx_val_of_single rfl i q
theorem rhs_0 (i : S10000x64.Idx) (q : dot_S10000x128_S128x64_S10000x64_1_0_0_1_n_n.contr.Idx) : (dot_S10000x128_S128x64_S10000x64_1_0_0_1_n_n.rhsIdx i q 0).val = (q ⟨0, by decide⟩).val :=
  dot_S10000x128_S128x64_S10000x64_1_0_0_1_n_n.rhsIdx_val_of_single rfl i q
theorem rhs_1 (i : S10000x64.Idx) (q : dot_S10000x128_S128x64_S10000x64_1_0_0_1_n_n.contr.Idx) : (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The body's stored value at `(r, q)` of the block: the sum over `j` of `x (r, j) · w (j, q)` — a matrix product into
    a zero accumulator, the operands' roundings to a narrower format being the identity on the extended reals (and the cast of the block to its own shape the identity). -/
theorem payload_apply (x : Vec Ideal S10000x128 .f32) (w : Vec Ideal S128x64 .f32) (y : S10000x64.Idx) :
    k2_pay1 x w y = ∑ j : Fin 128, x (ix2 (rowOf y) j) * w (ix2 j (colOf y)) := by
  unfold k2_pay1
  simp only [shapeCast_self]
  refine (Ideal.matmul_constant_zero_apply dot_S10000x128_S128x64_S10000x64_1_0_0_1_n_n none _ _ y).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx y ((contrEquiv1 dot_S10000x128_S128x64_S10000x64_1_0_0_1_n_n 128 rfl rfl).symm k) = ix2 (rowOf y) k := funext fun a => Fin.ext (by
    match a with
    | ⟨0, _⟩ => exact lhs_0 _ _
    | ⟨1, _⟩ => exact (lhs_1 _ _).trans hk)
  have er : dot_S10000x128_S128x64_S10000x64_1_0_0_1_n_n.rhsIdx y ((contrEquiv1 dot_S10000x128_S128x64_S10000x64_1_0_0_1_n_n 128 rfl rfl).symm k) = ix2 k (colOf y) := funext fun a => Fin.ext (by
    match a with
    | ⟨0, _⟩ => exact (rhs_0 _ _).trans hk
    | ⟨1, _⟩ => exact rhs_1 _ _)
  rw [el, er]
  rfl

/-! ## The blocks -/

/-- The printed index maps over the five grid points: the table's and the result's block is row block `t`, the
    weights' block is the whole matrix. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The table's block at point `t` holds rows `10000·t + r` of the table. -/
theorem table_block (c : Dev nD) (t : Fin cfg2.N) (z : S10000x128.Idx) (k : S50000x128.Idx)
    (h0 : (k 0).val = 10000 * t.val + (z 0).val) (h1 : (k 1).val = (z 1).val) :
    (iblk2 V c 0 t : Vec Ideal S10000x128 .f32) z = (V c main_v45 : S50000x128.Idx → EReal) k := by
  obtain ⟨e0, e1, -, -, -, -⟩ := idx_facts t
  unfold iblk2
  rw [View.read_apply]
  show V c main_v45 _ = V c main_v45 _
  refine congrArg (V c main_v45) ?_
  funext a
  apply Fin.ext
  match a with
  | ⟨0, _⟩ => show win2_0.index t (0 : Fin 2) * 10000 + 1 * (z 0).val = (k 0).val; rw [e0, h0]; omega
  | ⟨1, _⟩ => show win2_0.index t (1 : Fin 2) * 128 + 1 * (z 1).val = (k 1).val; rw [e1, h1]; omega

/-- The weights' block at every point is the whole matrix. -/
theorem weight_block (c : Dev nD) (t : Fin cfg2.N) (z : S128x64.Idx) :
    (iblk2 V c 1 t : Vec Ideal S128x64 .f32) z = (V c main_arg4 : S128x64.Idx → EReal) z := by
  obtain ⟨-, -, e2, e3, -, -⟩ := idx_facts t
  unfold iblk2
  rw [View.read_apply]
  show V c main_arg4 _ = V c main_arg4 _
  refine congrArg (V c main_arg4) ?_
  funext a
  apply Fin.ext
  match a with
  | ⟨0, _⟩ => show win2_1.index t (0 : Fin 2) * 128 + 1 * (z 0).val = (z 0).val; rw [e2]; omega
  | ⟨1, _⟩ => show win2_1.index t (1 : Fin 2) * 64 + 1 * (z 1).val = (z 1).val; rw [e3]; omega

/-- What point `t` writes back is row block `t` of the dense layer of the table and the weights. -/
theorem flushed_eq (c : Dev nD) (t : Fin cfg2.N) :
    (dat2 V c).flushed 2 t = ((cfg2.win 2).blk t).view.read (Elt Ideal) (dense (V c main_v45) (V c main_arg4) : S50000x64.Idx → EReal) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x64) hz]
  obtain ⟨-, -, -, -, e4, e5⟩ := idx_facts t
  funext y
  show k2_pay1 (iblk2 V c 0 t) (iblk2 V c 1 t) y = dense (V c main_v45) (V c main_arg4) (((cfg2.win 2).blk t).view.emb y)
  refine (payload_apply _ _ y).trans ?_
  rw [dense_apply]
  refine Finset.sum_congr rfl fun j _ => ?_
  have hr : ((((cfg2.win 2).blk t).view.emb y) 0).val = 10000 * t.val + (y 0).val := by
    show win2_2.index t (0 : Fin 2) * 10000 + 1 * (y 0).val = _; rw [e4]; omega
  have hc : ((((cfg2.win 2).blk t).view.emb y) 1).val = (y 1).val := by
    show win2_2.index t (1 : Fin 2) * 64 + 1 * (y 1).val = _; rw [e5]; omega
  have hq : (ix2 j (colOf y) : S128x64.Idx) = ix2 j (colOf (((cfg2.win 2).blk t).view.emb y)) := by
    funext a
    apply Fin.ext
    match a with
    | ⟨0, _⟩ => rfl
    | ⟨1, _⟩ => exact hc.symm
  rw [table_block V c t (ix2 (rowOf y) j) (ix2 (rowOf (((cfg2.win 2).blk t).view.emb y)) j) hr rfl,
    weight_block V c t (ix2 j (colOf y)), hq]

/-- Every row of the result lies in some point's block: row `r` in that of point `r / 10000`. -/
theorem cover (i : S50000x64.Idx) : ∃ t : Fin cfg2.N, (cfg2.win 2).flush t = true ∧ i ∈ ((cfg2.win 2).blk t).view.set := by
  have hi0 : (i 0).val < 50000 := (i 0).isLt
  have hi1 : (i 1).val < 64 := (i 1).isLt
  have hN : cfg2.N = 5 := N_2
  let t : Fin cfg2.N := ⟨(i 0).val / 10000, by rw [hN]; omega⟩
  obtain ⟨-, -, -, -, e4, e5⟩ := idx_facts t
  have e4' : win2_2.index t (0 : Fin 2) = (i 0).val / 10000 := e4
  refine ⟨t, flush2_2 t, ?_⟩
  show i ∈ ((View.whole main_v46).slice (win2_2.rect t)).set
  rw [View.set_slice_whole, Rect.mem_set_unit]
  intro a
  match a with
  | ⟨0, _⟩ => show win2_2.index t (0 : Fin 2) * 10000 ≤ (i 0).val ∧ (i 0).val < win2_2.index t (0 : Fin 2) * 10000 + 10000; rw [e4']; omega
  | ⟨1, _⟩ => show win2_2.index t (1 : Fin 2) * 64 ≤ (i 1).val ∧ (i 1).val < win2_2.index t (1 : Fin 2) * 64 + 64; rw [e5]; omega

/-- After the region the result array is the dense layer of the table and the weights as the region found them. -/
theorem final (c : Dev nD) :
    (dat2 V c).arrAt 2 cfg2.N = (dense (V c main_v45) (V c main_arg4) : S50000x64.Idx → EReal) :=
  (dat2 V c).arrAt_eq_of_cover 2 _ (fun t _ => flushed_eq V c t) cover

end Cert.KernelIdeal.Dense2

end
-- ==== Proof.Bias3.lean ====
/-
  Region 3 of the program adds a bias row to a table and rectifies, over blocks of 10000 rows: at grid point `t` the
  body reads rows `10000·t … 10000·t + 9999` of the table and the whole `1 × 64` bias, stores the larger of their sum
  and the value of the all-zero word, and the block is written back as the same rows of the result. The five row
  blocks tile the 50000 rows, so after the region the result array is the epilogue of the table as the region
  found it.
-/
import proofs.«109217_j85804856639970_1_alg».proof.Proof.Gen.KernelIdeal.Frame
import proofs.«109217_j85804856639970_1_alg».proof.Proof.GcnSpec
import Idealize.ShloMosaic.Lib.Pipeline.Value
import Idealize.ShloMosaic.Lib.ValueIdx
import Idealize.ShloMosaic.Lib.ValueLayout

noncomputable section

namespace Cert.KernelIdeal.Bias3

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's stored value at `(p, q)` of the block: the larger of `x (p, q) + b (0, q)` and the value of the all-zero
    word (the casts to the same shape are the identity, the bias row is read at every row). -/
theorem payload_apply (b : Vec Ideal S1x64 .f32) (x : Vec Ideal S10000x64 .f32) (y : S10000x64.Idx) :
    k3_pay1 b x y = max (x y + b (ix2 (0 : Fin 1) (colOf y))) (Ideal.ofBits .f32 0x00000000#32) := by
  obtain ⟨p, q, rfl⟩ : ∃ (p : Fin 10000) (q : Fin 64), y = ix2 p q := ⟨y 0, y 1, eq_ix2 y⟩
  have hb : broadcastTo S10000x64 b broadcasts_S1x64_S10000x64 (ix2 p q) = b (ix2 (0 : Fin 1) q) :=
    broadcastTo_1b_ab_apply b _ p q
  unfold k3_pay1
  simp only [shapeCast_self]
  show max (x (ix2 p q) + broadcastTo S10000x64 b broadcasts_S1x64_S10000x64 (ix2 p q)) _ = _
  rw [hb]
  rfl

/-! ## The blocks -/

/-- The printed index maps over the five grid points: the table's and the result's block is row block `t`, the
    bias's block is the whole row. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The table's block at point `t` holds rows `10000·t + r` of the table. -/
theorem table_block (c : Dev nD) (t : Fin cfg3.N) (z : S10000x64.Idx) (k : S50000x64.Idx)
    (h0 : (k 0).val = 10000 * t.val + (z 0).val) (h1 : (k 1).val = (z 1).val) :
    (iblk3 V c 0 t : Vec Ideal S10000x64 .f32) z = (V c main_v59 : S50000x64.Idx → EReal) k := by
  obtain ⟨e0, e1, -, -, -, -⟩ := idx_facts t
  unfold iblk3
  rw [View.read_apply]
  show V c main_v59 _ = V c main_v59 _
  refine congrArg (V c main_v59) ?_
  funext a
  apply Fin.ext
  match a with
  | ⟨0, _⟩ => show win3_0.index t (0 : Fin 2) * 10000 + 1 * (z 0).val = (k 0).val; rw [e0, h0]; omega
  | ⟨1, _⟩ => show win3_0.index t (1 : Fin 2) * 64 + 1 * (z 1).val = (k 1).val; rw [e1, h1]; omega

/-- The bias's block at every point is the whole row. -/
theorem bias_block (c : Dev nD) (t : Fin cfg3.N) (z : S1x64.Idx) :
    (iblk3 V c 1 t : Vec Ideal S1x64 .f32) z = (V c main_v60 : S1x64.Idx → EReal) z := by
  obtain ⟨-, -, e2, e3, -, -⟩ := idx_facts t
  unfold iblk3
  rw [View.read_apply]
  show V c main_v60 _ = V c main_v60 _
  refine congrArg (V c main_v60) ?_
  funext a
  apply Fin.ext
  match a with
  | ⟨0, _⟩ => show win3_1.index t (0 : Fin 2) * 1 + 1 * (z 0).val = (z 0).val; rw [e2]; omega
  | ⟨1, _⟩ => show win3_1.index t (1 : Fin 2) * 64 + 1 * (z 1).val = (z 1).val; rw [e3]; omega

/-- What point `t` writes back is row block `t` of the epilogue of the table and the bias. -/
theorem flushed_eq (c : Dev nD) (t : Fin cfg3.N) :
    (dat3 V c).flushed 2 t = ((cfg3.win 2).blk t).view.read (Elt Ideal) (biasRelu (V c main_v59) (V c main_v60) : S50000x64.Idx → EReal) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  obtain ⟨-, -, -, -, e4, e5⟩ := idx_facts t
  funext y
  show k3_pay1 (iblk3 V c 1 t) (iblk3 V c 0 t) y = biasRelu (V c main_v59) (V c main_v60) (((cfg3.win 2).blk t).view.emb y)
  refine (payload_apply _ _ y).trans ?_
  rw [biasRelu_apply]
  have hr : ((((cfg3.win 2).blk t).view.emb y) 0).val = 10000 * t.val + (y 0).val := by
    show win3_2.index t (0 : Fin 2) * 10000 + 1 * (y 0).val = _; rw [e4]; omega
  have hc : ((((cfg3.win 2).blk t).view.emb y) 1).val = (y 1).val := by
    show win3_2.index t (1 : Fin 2) * 64 + 1 * (y 1).val = _; rw [e5]; omega
  have hq : (ix2 (0 : Fin 1) (colOf y) : S1x64.Idx) = ix2 (0 : Fin 1) (colOf (((cfg3.win 2).blk t).view.emb y)) := by
    funext a
    apply Fin.ext
    match a with
    | ⟨0, _⟩ => rfl
    | ⟨1, _⟩ => exact hc.symm
  rw [table_block V c t y (((cfg3.win 2).blk t).view.emb y) hr hc, bias_block V c t (ix2 (0 : Fin 1) (colOf y)), hq]

/-- Every row of the result lies in some point's block: row `r` in that of point `r / 10000`. -/
theorem cover (i : S50000x64.Idx) : ∃ t : Fin cfg3.N, (cfg3.win 2).flush t = true ∧ i ∈ ((cfg3.win 2).blk t).view.set := by
  have hi0 : (i 0).val < 50000 := (i 0).isLt
  have hi1 : (i 1).val < 64 := (i 1).isLt
  have hN : cfg3.N = 5 := N_3
  let t : Fin cfg3.N := ⟨(i 0).val / 10000, by rw [hN]; omega⟩
  obtain ⟨-, -, -, -, e4, e5⟩ := idx_facts t
  have e4' : win3_2.index t (0 : Fin 2) = (i 0).val / 10000 := e4
  refine ⟨t, flush3_2 t, ?_⟩
  show i ∈ ((View.whole main_v61).slice (win3_2.rect t)).set
  rw [View.set_slice_whole, Rect.mem_set_unit]
  intro a
  match a with
  | ⟨0, _⟩ => show win3_2.index t (0 : Fin 2) * 10000 ≤ (i 0).val ∧ (i 0).val < win3_2.index t (0 : Fin 2) * 10000 + 10000; rw [e4']; omega
  | ⟨1, _⟩ => show win3_2.index t (1 : Fin 2) * 64 ≤ (i 1).val ∧ (i 1).val < win3_2.index t (1 : Fin 2) * 64 + 64; rw [e5]; omega

/-- After the region the result array is the epilogue of the table and the bias as the region found them. -/
theorem final (c : Dev nD) :
    (dat3 V c).arrAt 2 cfg3.N = (biasRelu (V c main_v59) (V c main_v60) : S50000x64.Idx → EReal) :=
  (dat3 V c).arrAt_eq_of_cover 2 _ (fun t _ => flushed_eq V c t) cover

end Cert.KernelIdeal.Bias3

end
-- ==== Proof.Dense4.lean ====
/-
  Region 4 of the program is the last layer, dense then bias, over blocks of 10000 rows: at grid point `t` the body
  multiplies rows `10000·t … 10000·t + 9999` of the table by the whole weight matrix, adds the `1 × 64` bias row to
  every row, and the block is written back as the same rows of the result. The five row blocks tile the 50000 rows,
  so after the region the result array is the last layer of the table as the region found it.
-/
import proofs.«109217_j85804856639970_1_alg».proof.Proof.Gen.KernelIdeal.Frame
import proofs.«109217_j85804856639970_1_alg».proof.Proof.GcnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Dense4

open Cert.KernelIdeal Cert.KernelIdeal.Gen Idealize.ShloMosaic Idealize.ShloMosaic.TcCoe Idealize.SL.Sem
open Idealize.ShloMosaic.ValueIdx Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The body's product and sum at an index -/

theorem lhs_0 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_1 (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem rhs_0 (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem rhs_1 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The matrix product of a block of rows with the weights, into a zero accumulator, at `(r, q)`: the sum over `j` of
    `x (r, j) · w (j, q)` (the operands' roundings to a narrower format are the identity on the extended reals). -/
theorem product_apply (x : FVec Ideal S10000x64 .f32) (w : FVec Ideal S64x64 .f32) (h1 h2) (y : S10000x64.Idx) :
    matmul dot_S10000x64_S64x64_S10000x64_1_0_0_1_n_n none (truncf .bf16 x h1) (truncf .bf16 w h2) (constant S10000x64 .f32 0x00000000#32) y
      = ∑ j : Fin 64, x (ix2 (rowOf y) j) * w (ix2 j (colOf y)) := by
  refine (Ideal.matmul_constant_zero_apply dot_S10000x64_S64x64_S10000x64_1_0_0_1_n_n none _ _ y).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx y ((contrEquiv1 dot_S10000x64_S64x64_S10000x64_1_0_0_1_n_n 64 rfl rfl).symm k) = ix2 (rowOf y) k := funext fun a => Fin.ext (by
    match a with
    | ⟨0, _⟩ => exact lhs_0 _ _
    | ⟨1, _⟩ => exact (lhs_1 _ _).trans hk)
  have er : dot_S10000x64_S64x64_S10000x64_1_0_0_1_n_n.rhsIdx y ((contrEquiv1 dot_S10000x64_S64x64_S10000x64_1_0_0_1_n_n 64 rfl rfl).symm k) = ix2 k (colOf y) := funext fun a => Fin.ext (by
    match a with
    | ⟨0, _⟩ => exact (rhs_0 _ _).trans hk
    | ⟨1, _⟩ => exact rhs_1 _ _)
  rw [el, er]
  rfl

/-- The body's stored value at `(r, q)` of the block: that sum plus `b (0, q)` (the casts to the same shape are the
    identity, the bias row is read at every row). -/
theorem payload_apply (x : Vec Ideal S10000x64 .f32) (w : Vec Ideal S64x64 .f32) (b : Vec Ideal S1x64 .f32) (y : S10000x64.Idx) :
    k4_pay1 x w b y = (∑ j : Fin 64, x (ix2 (rowOf y) j) * w (ix2 j (colOf y))) + b (ix2 (0 : Fin 1) (colOf y)) := by
  obtain ⟨p, q, rfl⟩ : ∃ (p : Fin 10000) (q : Fin 64), y = ix2 p q := ⟨y 0, y 1, eq_ix2 y⟩
  have hb : broadcastTo S10000x64 b broadcasts_S1x64_S10000x64 (ix2 p q) = b (ix2 (0 : Fin 1) q) :=
    broadcastTo_1b_ab_apply b _ p q
  unfold k4_pay1
  simp only [shapeCast_self]
  show matmul (F := Ideal) dot_S10000x64_S64x64_S10000x64_1_0_0_1_n_n none (truncf .bf16 x bitsLt_bf16_f32) (truncf .bf16 w bitsLt_bf16_f32) (constant S10000x64 .f32 0x00000000#32) (ix2 p q)
      + broadcastTo S10000x64 b broadcasts_S1x64_S10000x64 (ix2 p q) = _
  rw [hb, product_apply]

/-! ## The blocks -/

/-- The printed index maps over the five grid points: the table's and the result's block is row block `t`, the
    weights' and the bias's block is the whole array. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The table's block at point `t` holds rows `10000·t + r` of the table. -/
theorem table_block (c : Dev nD) (t : Fin cfg4.N) (z : S10000x64.Idx) (k : S50000x64.Idx)
    (h0 : (k 0).val = 10000 * t.val + (z 0).val) (h1 : (k 1).val = (z 1).val) :
    (iblk4 V c 0 t : Vec Ideal S10000x64 .f32) z = (V c main_v61 : S50000x64.Idx → EReal) k := by
  obtain ⟨e0, e1, -, -, -, -, -, -⟩ := idx_facts t
  unfold iblk4
  rw [View.read_apply]
  show V c main_v61 _ = V c main_v61 _
  refine congrArg (V c main_v61) ?_
  funext a
  apply Fin.ext
  match a with
  | ⟨0, _⟩ => show win4_0.index t (0 : Fin 2) * 10000 + 1 * (z 0).val = (k 0).val; rw [e0, h0]; omega
  | ⟨1, _⟩ => show win4_0.index t (1 : Fin 2) * 64 + 1 * (z 1).val = (k 1).val; rw [e1, h1]; omega

/-- The weights' block at every point is the whole matrix. -/
theorem weight_block (c : Dev nD) (t : Fin cfg4.N) (z : S64x64.Idx) :
    (iblk4 V c 1 t : Vec Ideal S64x64 .f32) z = (V c main_arg6 : S64x64.Idx → EReal) z := by
  obtain ⟨-, -, e2, e3, -, -, -, -⟩ := idx_facts t
  unfold iblk4
  rw [View.read_apply]
  show V c main_arg6 _ = V c main_arg6 _
  refine congrArg (V c main_arg6) ?_
  funext a
  apply Fin.ext
  match a with
  | ⟨0, _⟩ => show win4_1.index t (0 : Fin 2) * 64 + 1 * (z 0).val = (z 0).val; rw [e2]; omega
  | ⟨1, _⟩ => show win4_1.index t (1 : Fin 2) * 64 + 1 * (z 1).val = (z 1).val; rw [e3]; omega

/-- The bias's block at every point is the whole row. -/
theorem bias_block (c : Dev nD) (t : Fin cfg4.N) (z : S1x64.Idx) :
    (iblk4 V c 2 t : Vec Ideal S1x64 .f32) z = (V c main_v62 : S1x64.Idx → EReal) z := by
  obtain ⟨-, -, -, -, e4, e5, -, -⟩ := idx_facts t
  unfold iblk4
  rw [View.read_apply]
  show V c main_v62 _ = V c main_v62 _
  refine congrArg (V c main_v62) ?_
  funext a
  apply Fin.ext
  match a with
  | ⟨0, _⟩ => show win4_2.index t (0 : Fin 2) * 1 + 1 * (z 0).val = (z 0).val; rw [e4]; omega
  | ⟨1, _⟩ => show win4_2.index t (1 : Fin 2) * 64 + 1 * (z 1).val = (z 1).val; rw [e5]; omega

/-- What point `t` writes back is row block `t` of the last layer of the table, the weights and the bias. -/
theorem flushed_eq (c : Dev nD) (t : Fin cfg4.N) :
    (dat4 V c).flushed 3 t = ((cfg4.win 3).blk t).view.read (Elt Ideal) (denseBias (V c main_v61) (V c main_arg6) (V c main_v62) : S50000x64.Idx → EReal) := by
  show (cfg4.win 3).cut (grid4.coords t) ((dat4 V c).after 3 t) = _
  rw [after4_3]
  unfold out4_3
  rw [View.canon_unit_zero hz]
  simp only [View.ld_unit_zero (S := S10000x64) hz, View.ld_unit_zero (S := S64x64) hz, View.ld_unit_zero (S := S1x64) hz]
  obtain ⟨-, -, -, -, -, -, e6, e7⟩ := idx_facts t
  funext y
  show k4_pay1 (iblk4 V c 0 t) (iblk4 V c 1 t) (iblk4 V c 2 t) y = denseBias (V c main_v61) (V c main_arg6) (V c main_v62) (((cfg4.win 3).blk t).view.emb y)
  refine (payload_apply _ _ _ y).trans ?_
  rw [denseBias_apply]
  have hr : ((((cfg4.win 3).blk t).view.emb y) 0).val = 10000 * t.val + (y 0).val := by
    show win4_3.index t (0 : Fin 2) * 10000 + 1 * (y 0).val = _; rw [e6]; omega
  have hc : ((((cfg4.win 3).blk t).view.emb y) 1).val = (y 1).val := by
    show win4_3.index t (1 : Fin 2) * 64 + 1 * (y 1).val = _; rw [e7]; omega
  have hqb : (ix2 (0 : Fin 1) (colOf y) : S1x64.Idx) = ix2 (0 : Fin 1) (colOf (((cfg4.win 3).blk t).view.emb y)) := by
    funext a
    apply Fin.ext
    match a with
    | ⟨0, _⟩ => rfl
    | ⟨1, _⟩ => exact hc.symm
  refine congrArg₂ (fun (a b : EReal) => a + b) (Finset.sum_congr rfl fun j _ => ?_) ?_
  · have hq : (ix2 j (colOf y) : S64x64.Idx) = ix2 j (colOf (((cfg4.win 3).blk t).view.emb y)) := by
      funext a
      apply Fin.ext
      match a with
      | ⟨0, _⟩ => rfl
      | ⟨1, _⟩ => exact hc.symm
    rw [table_block V c t (ix2 (rowOf y) j) (ix2 (rowOf (((cfg4.win 3).blk t).view.emb y)) j) hr rfl,
      weight_block V c t (ix2 j (colOf y)), hq]
  · rw [bias_block V c t (ix2 (0 : Fin 1) (colOf y)), hqb]

/-- Every row of the result lies in some point's block: row `r` in that of point `r / 10000`. -/
theorem cover (i : S50000x64.Idx) : ∃ t : Fin cfg4.N, (cfg4.win 3).flush t = true ∧ i ∈ ((cfg4.win 3).blk t).view.set := by
  have hi0 : (i 0).val < 50000 := (i 0).isLt
  have hi1 : (i 1).val < 64 := (i 1).isLt
  have hN : cfg4.N = 5 := N_4
  let t : Fin cfg4.N := ⟨(i 0).val / 10000, by rw [hN]; omega⟩
  obtain ⟨-, -, -, -, -, -, e6, e7⟩ := idx_facts t
  have e6' : win4_3.index t (0 : Fin 2) = (i 0).val / 10000 := e6
  refine ⟨t, flush4_3 t, ?_⟩
  show i ∈ ((View.whole main_v63).slice (win4_3.rect t)).set
  rw [View.set_slice_whole, Rect.mem_set_unit]
  intro a
  match a with
  | ⟨0, _⟩ => show win4_3.index t (0 : Fin 2) * 10000 ≤ (i 0).val ∧ (i 0).val < win4_3.index t (0 : Fin 2) * 10000 + 10000; rw [e6']; omega
  | ⟨1, _⟩ => show win4_3.index t (1 : Fin 2) * 64 ≤ (i 1).val ∧ (i 1).val < win4_3.index t (1 : Fin 2) * 64 + 64; rw [e7]; omega

/-- After the region the result array is the last layer of the table, the weights and the bias as the region found them. -/
theorem final (c : Dev nD) :
    (dat4 V c).arrAt 3 cfg4.N = (denseBias (V c main_v61) (V c main_arg6) (V c main_v62) : S50000x64.Idx → EReal) :=
  (dat4 V c).arrAt_eq_of_cover 3 _ (fun t _ => flushed_eq V c t) cover

end Cert.KernelIdeal.Dense4

end
-- ==== Proof.KernelValue.lean ====
/-
  The kernel program's result buffer, when every weakly fair execution ends, holds the forward function of the
  arguments.

  The contents at the last boundary are followed back region by region. A region's result array is its layer applied
  to its input arrays as the region found them (the five region modules); a stretch of host operations between two
  regions is the aggregation of the table the region before it left, with the sources, targets and weights formed
  before the first region and untouched since, and a reshape of a bias vector into a row; every other buffer a
  region or a stretch does not write keeps its contents.
-/
import proofs.«109217_j85804856639970_1_alg».proof.Proof.HostPrefix
import proofs.«109217_j85804856639970_1_alg».proof.Proof.Aggregate
import proofs.«109217_j85804856639970_1_alg».proof.Proof.Dense0
import proofs.«109217_j85804856639970_1_alg».proof.Proof.Bias1
import proofs.«109217_j85804856639970_1_alg».proof.Proof.Dense2
import proofs.«109217_j85804856639970_1_alg».proof.Proof.Bias3
import proofs.«109217_j85804856639970_1_alg».proof.Proof.Dense4
import Idealize.ShloMosaic.Lib.ValueLayout

noncomputable section

namespace Cert.KernelIdeal.Walk

open Cert.KernelIdeal Cert.KernelIdeal.Gen Idealize.ShloMosaic Idealize.ShloMosaic.TcCoe Idealize.SL.Sem
open Idealize.ShloMosaic.ValueIdx Cert.Gcn

/-- A vector reshaped to one row is its row form. -/
theorem reshape_row {d : Nat} (b : (⟨1, ![d]⟩ : Shape).Idx → EReal) (h : (⟨1, ![d]⟩ : Shape).ShapeCasts ⟨2, ![1, d]⟩) :
    shapeCast ⟨2, ![1, d]⟩ b h = rowForm b := by
  funext i
  obtain ⟨u, j, rfl⟩ : ∃ (u : Fin 1) (j : Fin d), i = ix2 u j := ⟨i 0, i 1, eq_ix2 i⟩
  exact shapeCast_a_1a_apply b h u j

/-! ## The stretches of host operations between the regions, from any contents -/

section Generic
variable (Vl : Valuation τ sig (Elt Ideal)) (e : (⟨S2x800000, .i32⟩ : BufTy).Contents (Elt Ideal))

/-- The stretch after region 0 aggregates region 0's result. -/
theorem agg1_of
    (h5 : Vl (Proc.devRef .tc main_v5) = Cert.ReferenceIdeal.ReadP.val_main_v5 (F := Ideal) e)
    (h6 : Vl (Proc.devRef .tc main_v6) = Cert.ReferenceIdeal.ReadP.val_main_v6 (F := Ideal) e)
    (h29 : Vl (Proc.devRef .tc main_v29) = Cert.ReferenceIdeal.ReadP.val_main_v29 (F := Ideal) e) :
    StableHlo.after hostOps1 Vl (Proc.devRef .tc main_v43) = agg128 e (Vl (Proc.devRef .tc main_v30)) := by
  after_results_simp
  rw [h5, h6, h29]
  rfl

/-- … and reshapes the first bias into a row. -/
theorem bias1_of : StableHlo.after hostOps1 Vl (Proc.devRef .tc main_v44)
    = shapeCast S1x128 (Vl (Proc.devRef .tc main_arg3)) shapeCasts_S128_S1x128 := by
  after_results_simp <;> rfl

theorem keep1_main_v5 : StableHlo.after hostOps1 Vl (Proc.devRef .tc main_v5) = Vl (Proc.devRef .tc main_v5) := by
  after_results_simp
theorem keep1_main_v6 : StableHlo.after hostOps1 Vl (Proc.devRef .tc main_v6) = Vl (Proc.devRef .tc main_v6) := by
  after_results_simp
theorem keep1_main_v29 : StableHlo.after hostOps1 Vl (Proc.devRef .tc main_v29) = Vl (Proc.devRef .tc main_v29) := by
  after_results_simp
theorem keep1_main_arg4 : StableHlo.after hostOps1 Vl (Proc.devRef .tc main_arg4) = Vl (Proc.devRef .tc main_arg4) := by
  after_results_simp
theorem keep1_main_arg5 : StableHlo.after hostOps1 Vl (Proc.devRef .tc main_arg5) = Vl (Proc.devRef .tc main_arg5) := by
  after_results_simp
theorem keep1_main_arg6 : StableHlo.after hostOps1 Vl (Proc.devRef .tc main_arg6) = Vl (Proc.devRef .tc main_arg6) := by
  after_results_simp
theorem keep1_main_arg7 : StableHlo.after hostOps1 Vl (Proc.devRef .tc main_arg7) = Vl (Proc.devRef .tc main_arg7) := by
  after_results_simp

/-- The stretch after region 2 aggregates region 2's result. -/
theorem agg2_of
    (h5 : Vl (Proc.devRef .tc main_v5) = Cert.ReferenceIdeal.ReadP.val_main_v5 (F := Ideal) e)
    (h6 : Vl (Proc.devRef .tc main_v6) = Cert.ReferenceIdeal.ReadP.val_main_v6 (F := Ideal) e)
    (h29 : Vl (Proc.devRef .tc main_v29) = Cert.ReferenceIdeal.ReadP.val_main_v29 (F := Ideal) e) :
    StableHlo.after hostOps3 Vl (Proc.devRef .tc main_v59) = agg64 e (Vl (Proc.devRef .tc main_v46)) := by
  after_results_simp
  rw [h5, h6, h29]
  rfl

/-- … and reshapes the second bias into a row. -/
theorem bias2_of : StableHlo.after hostOps3 Vl (Proc.devRef .tc main_v60)
    = shapeCast S1x64 (Vl (Proc.devRef .tc main_arg5)) shapeCasts_S64_S1x64 := by
  after_results_simp <;> rfl

theorem keep3_main_arg6 : StableHlo.after hostOps3 Vl (Proc.devRef .tc main_arg6) = Vl (Proc.devRef .tc main_arg6) := by
  after_results_simp
theorem keep3_main_arg7 : StableHlo.after hostOps3 Vl (Proc.devRef .tc main_arg7) = Vl (Proc.devRef .tc main_arg7) := by
  after_results_simp

/-- The stretch after region 3 reshapes the last bias into a row. -/
theorem bias3_of : StableHlo.after hostOps4 Vl (Proc.devRef .tc main_v62)
    = shapeCast S1x64 (Vl (Proc.devRef .tc main_arg7)) shapeCasts_S64_S1x64 := by
  after_results_simp <;> rfl

theorem keep4_main_v61 : StableHlo.after hostOps4 Vl (Proc.devRef .tc main_v61) = Vl (Proc.devRef .tc main_v61) := by
  after_results_simp
theorem keep4_main_arg6 : StableHlo.after hostOps4 Vl (Proc.devRef .tc main_arg6) = Vl (Proc.devRef .tc main_arg6) := by
  after_results_simp

end Generic

/-! ## The boundaries, one after the other -/

variable (m : (ℓ : Loc nD τ sig) → Buf (Elt Ideal) ℓ) (ρ : Dev nD → PrngReg) (c : Dev nD)

/-- Region 0 leaves the dense layer of the features. -/
theorem out0 : W4 m ρ c (Proc.devRef .tc main_v30) = (dense (n := 50000) (k := 128) (d := 128) (m ((c : Thread nD τ).loc main_arg0)) (m ((c : Thread nD τ).loc main_arg2)) : S50000x128.Idx → EReal) := by
  have e0 : V3 m ρ c main_arg0 = (m ((c : Thread nD τ).loc main_arg0)) := HostPrefix.arg0 m ρ c
  have e2 : V3 m ρ c main_arg2 = (m ((c : Thread nD τ).loc main_arg2)) := HostPrefix.arg2 m ρ c
  refine (W4_arr m ρ c 2).trans ((Dense0.final (V3 m ρ) c).trans ?_)
  rw [e0, e2]

theorem src4 : W4 m ρ c (Proc.devRef .tc main_v5) = Cert.ReferenceIdeal.ReadP.val_main_v5 (F := Ideal) (m ((c : Thread nD τ).loc main_arg1)) :=
  (W4_of_ne m ρ c main_v5 (by decide)).trans (HostPrefix.src m ρ c)
theorem dst4 : W4 m ρ c (Proc.devRef .tc main_v6) = Cert.ReferenceIdeal.ReadP.val_main_v6 (F := Ideal) (m ((c : Thread nD τ).loc main_arg1)) :=
  (W4_of_ne m ρ c main_v6 (by decide)).trans (HostPrefix.dst m ρ c)
theorem weight4 : W4 m ρ c (Proc.devRef .tc main_v29) = Cert.ReferenceIdeal.ReadP.val_main_v29 (F := Ideal) (m ((c : Thread nD τ).loc main_arg1)) :=
  (W4_of_ne m ρ c main_v29 (by decide)).trans (HostPrefix.weight m ρ c)
theorem arg3_4 : W4 m ρ c (Proc.devRef .tc main_arg3) = (m ((c : Thread nD τ).loc main_arg3)) :=
  (W4_of_ne m ρ c main_arg3 (by decide)).trans (HostPrefix.arg3 m ρ c)
theorem arg4_4 : W4 m ρ c (Proc.devRef .tc main_arg4) = (m ((c : Thread nD τ).loc main_arg4)) :=
  (W4_of_ne m ρ c main_arg4 (by decide)).trans (HostPrefix.arg4 m ρ c)
theorem arg5_4 : W4 m ρ c (Proc.devRef .tc main_arg5) = (m ((c : Thread nD τ).loc main_arg5)) :=
  (W4_of_ne m ρ c main_arg5 (by decide)).trans (HostPrefix.arg5 m ρ c)
theorem arg6_4 : W4 m ρ c (Proc.devRef .tc main_arg6) = (m ((c : Thread nD τ).loc main_arg6)) :=
  (W4_of_ne m ρ c main_arg6 (by decide)).trans (HostPrefix.arg6 m ρ c)
theorem arg7_4 : W4 m ρ c (Proc.devRef .tc main_arg7) = (m ((c : Thread nD τ).loc main_arg7)) :=
  (W4_of_ne m ρ c main_arg7 (by decide)).trans (HostPrefix.arg7 m ρ c)

/-- The first aggregation. -/
theorem agg1 : W5 m ρ c (Proc.devRef .tc main_v43) = agg128 (m ((c : Thread nD τ).loc main_arg1)) (dense (n := 50000) (k := 128) (d := 128) (m ((c : Thread nD τ).loc main_arg0)) (m ((c : Thread nD τ).loc main_arg2))) :=
  (agg1_of (W4 m ρ c) (m ((c : Thread nD τ).loc main_arg1)) (src4 m ρ c) (dst4 m ρ c) (weight4 m ρ c)).trans (congrArg (agg128 (m ((c : Thread nD τ).loc main_arg1))) (out0 m ρ c))

theorem bias1 : W5 m ρ c (Proc.devRef .tc main_v44) = (rowForm (d := 128) (m ((c : Thread nD τ).loc main_arg3)) : S1x128.Idx → EReal) := by
  refine (bias1_of (W4 m ρ c)).trans ?_
  rw [arg3_4]
  exact reshape_row _ _

theorem src5 : W5 m ρ c (Proc.devRef .tc main_v5) = Cert.ReferenceIdeal.ReadP.val_main_v5 (F := Ideal) (m ((c : Thread nD τ).loc main_arg1)) :=
  (keep1_main_v5 (W4 m ρ c)).trans (src4 m ρ c)
theorem dst5 : W5 m ρ c (Proc.devRef .tc main_v6) = Cert.ReferenceIdeal.ReadP.val_main_v6 (F := Ideal) (m ((c : Thread nD τ).loc main_arg1)) :=
  (keep1_main_v6 (W4 m ρ c)).trans (dst4 m ρ c)
theorem weight5 : W5 m ρ c (Proc.devRef .tc main_v29) = Cert.ReferenceIdeal.ReadP.val_main_v29 (F := Ideal) (m ((c : Thread nD τ).loc main_arg1)) :=
  (keep1_main_v29 (W4 m ρ c)).trans (weight4 m ρ c)
theorem arg4_5 : W5 m ρ c (Proc.devRef .tc main_arg4) = (m ((c : Thread nD τ).loc main_arg4)) :=
  (keep1_main_arg4 (W4 m ρ c)).trans (arg4_4 m ρ c)
theorem arg5_5 : W5 m ρ c (Proc.devRef .tc main_arg5) = (m ((c : Thread nD τ).loc main_arg5)) :=
  (keep1_main_arg5 (W4 m ρ c)).trans (arg5_4 m ρ c)
theorem arg6_5 : W5 m ρ c (Proc.devRef .tc main_arg6) = (m ((c : Thread nD τ).loc main_arg6)) :=
  (keep1_main_arg6 (W4 m ρ c)).trans (arg6_4 m ρ c)
theorem arg7_5 : W5 m ρ c (Proc.devRef .tc main_arg7) = (m ((c : Thread nD τ).loc main_arg7)) :=
  (keep1_main_arg7 (W4 m ρ c)).trans (arg7_4 m ρ c)

/-- Region 1 leaves the first layer's output. -/
theorem out1 : W6 m ρ c (Proc.devRef .tc main_v45)
    = (biasRelu (agg128 (m ((c : Thread nD τ).loc main_arg1)) (dense (n := 50000) (k := 128) (d := 128) (m ((c : Thread nD τ).loc main_arg0)) (m ((c : Thread nD τ).loc main_arg2)))) (rowForm (d := 128) (m ((c : Thread nD τ).loc main_arg3))) : S50000x128.Idx → EReal) := by
  have e43 : V5 m ρ c main_v43 = agg128 (m ((c : Thread nD τ).loc main_arg1)) (dense (n := 50000) (k := 128) (d := 128) (m ((c : Thread nD τ).loc main_arg0)) (m ((c : Thread nD τ).loc main_arg2))) := agg1 m ρ c
  have e44 : V5 m ρ c main_v44 = (rowForm (d := 128) (m ((c : Thread nD τ).loc main_arg3)) : S1x128.Idx → EReal) := bias1 m ρ c
  refine (W6_arr m ρ c 2).trans ((Bias1.final (V5 m ρ) c).trans ?_)
  rw [e43, e44]

theorem src6 : W6 m ρ c (Proc.devRef .tc main_v5) = Cert.ReferenceIdeal.ReadP.val_main_v5 (F := Ideal) (m ((c : Thread nD τ).loc main_arg1)) :=
  (W6_of_ne m ρ c main_v5 (by decide)).trans (src5 m ρ c)
theorem dst6 : W6 m ρ c (Proc.devRef .tc main_v6) = Cert.ReferenceIdeal.ReadP.val_main_v6 (F := Ideal) (m ((c : Thread nD τ).loc main_arg1)) :=
  (W6_of_ne m ρ c main_v6 (by decide)).trans (dst5 m ρ c)
theorem weight6 : W6 m ρ c (Proc.devRef .tc main_v29) = Cert.ReferenceIdeal.ReadP.val_main_v29 (F := Ideal) (m ((c : Thread nD τ).loc main_arg1)) :=
  (W6_of_ne m ρ c main_v29 (by decide)).trans (weight5 m ρ c)
theorem arg4_6 : W6 m ρ c (Proc.devRef .tc main_arg4) = (m ((c : Thread nD τ).loc main_arg4)) :=
  (W6_of_ne m ρ c main_arg4 (by decide)).trans (arg4_5 m ρ c)
theorem arg5_6 : W6 m ρ c (Proc.devRef .tc main_arg5) = (m ((c : Thread nD τ).loc main_arg5)) :=
  (W6_of_ne m ρ c main_arg5 (by decide)).trans (arg5_5 m ρ c)
theorem arg6_6 : W6 m ρ c (Proc.devRef .tc main_arg6) = (m ((c : Thread nD τ).loc main_arg6)) :=
  (W6_of_ne m ρ c main_arg6 (by decide)).trans (arg6_5 m ρ c)
theorem arg7_6 : W6 m ρ c (Proc.devRef .tc main_arg7) = (m ((c : Thread nD τ).loc main_arg7)) :=
  (W6_of_ne m ρ c main_arg7 (by decide)).trans (arg7_5 m ρ c)

/-- Region 2 leaves the dense layer of the first layer's output. -/
theorem out2 : W7 m ρ c (Proc.devRef .tc main_v46)
    = (dense (n := 50000) (k := 128) (d := 64) (biasRelu (agg128 (m ((c : Thread nD τ).loc main_arg1)) (dense (n := 50000) (k := 128) (d := 128) (m ((c : Thread nD τ).loc main_arg0)) (m ((c : Thread nD τ).loc main_arg2)))) (rowForm (d := 128) (m ((c : Thread nD τ).loc main_arg3)))) (m ((c : Thread nD τ).loc main_arg4)) : S50000x64.Idx → EReal) := by
  have e45 : V6 m ρ c main_v45 = (biasRelu (agg128 (m ((c : Thread nD τ).loc main_arg1)) (dense (n := 50000) (k := 128) (d := 128) (m ((c : Thread nD τ).loc main_arg0)) (m ((c : Thread nD τ).loc main_arg2)))) (rowForm (d := 128) (m ((c : Thread nD τ).loc main_arg3))) : S50000x128.Idx → EReal) := out1 m ρ c
  have e4 : V6 m ρ c main_arg4 = (m ((c : Thread nD τ).loc main_arg4)) := arg4_6 m ρ c
  refine (W7_arr m ρ c 2).trans ((Dense2.final (V6 m ρ) c).trans ?_)
  rw [e45, e4]

theorem src7 : W7 m ρ c (Proc.devRef .tc main_v5) = Cert.ReferenceIdeal.ReadP.val_main_v5 (F := Ideal) (m ((c : Thread nD τ).loc main_arg1)) :=
  (W7_of_ne m ρ c main_v5 (by decide)).trans (src6 m ρ c)
theorem dst7 : W7 m ρ c (Proc.devRef .tc main_v6) = Cert.ReferenceIdeal.ReadP.val_main_v6 (F := Ideal) (m ((c : Thread nD τ).loc main_arg1)) :=
  (W7_of_ne m ρ c main_v6 (by decide)).trans (dst6 m ρ c)
theorem weight7 : W7 m ρ c (Proc.devRef .tc main_v29) = Cert.ReferenceIdeal.ReadP.val_main_v29 (F := Ideal) (m ((c : Thread nD τ).loc main_arg1)) :=
  (W7_of_ne m ρ c main_v29 (by decide)).trans (weight6 m ρ c)
theorem arg5_7 : W7 m ρ c (Proc.devRef .tc main_arg5) = (m ((c : Thread nD τ).loc main_arg5)) :=
  (W7_of_ne m ρ c main_arg5 (by decide)).trans (arg5_6 m ρ c)
theorem arg6_7 : W7 m ρ c (Proc.devRef .tc main_arg6) = (m ((c : Thread nD τ).loc main_arg6)) :=
  (W7_of_ne m ρ c main_arg6 (by decide)).trans (arg6_6 m ρ c)
theorem arg7_7 : W7 m ρ c (Proc.devRef .tc main_arg7) = (m ((c : Thread nD τ).loc main_arg7)) :=
  (W7_of_ne m ρ c main_arg7 (by decide)).trans (arg7_6 m ρ c)

/-- The table the second layer's epilogue is applied to. -/
abbrev pre2 : Tab 50000 64 :=
  agg64 (m ((c : Thread nD τ).loc main_arg1)) (dense (n := 50000) (k := 128) (d := 64) (biasRelu (agg128 (m ((c : Thread nD τ).loc main_arg1)) (dense (n := 50000) (k := 128) (d := 128) (m ((c : Thread nD τ).loc main_arg0)) (m ((c : Thread nD τ).loc main_arg2)))) (rowForm (d := 128) (m ((c : Thread nD τ).loc main_arg3)))) (m ((c : Thread nD τ).loc main_arg4)))

/-- The second aggregation. -/
theorem agg2 : W8 m ρ c (Proc.devRef .tc main_v59) = pre2 m c :=
  (agg2_of (W7 m ρ c) (m ((c : Thread nD τ).loc main_arg1)) (src7 m ρ c) (dst7 m ρ c) (weight7 m ρ c)).trans (congrArg (agg64 (m ((c : Thread nD τ).loc main_arg1))) (out2 m ρ c))

theorem bias2 : W8 m ρ c (Proc.devRef .tc main_v60) = (rowForm (d := 64) (m ((c : Thread nD τ).loc main_arg5)) : S1x64.Idx → EReal) := by
  refine (bias2_of (W7 m ρ c)).trans ?_
  rw [arg5_7]
  exact reshape_row _ _

theorem arg6_8 : W8 m ρ c (Proc.devRef .tc main_arg6) = (m ((c : Thread nD τ).loc main_arg6)) :=
  (keep3_main_arg6 (W7 m ρ c)).trans (arg6_7 m ρ c)
theorem arg7_8 : W8 m ρ c (Proc.devRef .tc main_arg7) = (m ((c : Thread nD τ).loc main_arg7)) :=
  (keep3_main_arg7 (W7 m ρ c)).trans (arg7_7 m ρ c)

/-- Region 3 leaves the second layer's output. -/
theorem out3 : W9 m ρ c (Proc.devRef .tc main_v61) = (biasRelu (pre2 m c) (rowForm (d := 64) (m ((c : Thread nD τ).loc main_arg5))) : S50000x64.Idx → EReal) := by
  have e59 : V8 m ρ c main_v59 = pre2 m c := agg2 m ρ c
  have e60 : V8 m ρ c main_v60 = (rowForm (d := 64) (m ((c : Thread nD τ).loc main_arg5)) : S1x64.Idx → EReal) := bias2 m ρ c
  refine (W9_arr m ρ c 2).trans ((Bias3.final (V8 m ρ) c).trans ?_)
  rw [e59, e60]

theorem arg6_9 : W9 m ρ c (Proc.devRef .tc main_arg6) = (m ((c : Thread nD τ).loc main_arg6)) :=
  (W9_of_ne m ρ c main_arg6 (by decide)).trans (arg6_8 m ρ c)
theorem arg7_9 : W9 m ρ c (Proc.devRef .tc main_arg7) = (m ((c : Thread nD τ).loc main_arg7)) :=
  (W9_of_ne m ρ c main_arg7 (by decide)).trans (arg7_8 m ρ c)

theorem out3' : W10 m ρ c (Proc.devRef .tc main_v61) = (biasRelu (pre2 m c) (rowForm (d := 64) (m ((c : Thread nD τ).loc main_arg5))) : S50000x64.Idx → EReal) :=
  (keep4_main_v61 (W9 m ρ c)).trans (out3 m ρ c)
theorem arg6_10 : W10 m ρ c (Proc.devRef .tc main_arg6) = (m ((c : Thread nD τ).loc main_arg6)) :=
  (keep4_main_arg6 (W9 m ρ c)).trans (arg6_9 m ρ c)
theorem bias3 : W10 m ρ c (Proc.devRef .tc main_v62) = (rowForm (d := 64) (m ((c : Thread nD τ).loc main_arg7)) : S1x64.Idx → EReal) := by
  refine (bias3_of (W9 m ρ c)).trans ?_
  rw [arg7_9]
  exact reshape_row _ _

/-- Region 4 leaves the forward function of the arguments. -/
theorem result : W11 m ρ c (Proc.devRef .tc main_v63) = (forward (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) : S50000x64.Idx → EReal) := by
  have e61 : V10 m ρ c main_v61 = (biasRelu (pre2 m c) (rowForm (d := 64) (m ((c : Thread nD τ).loc main_arg5))) : S50000x64.Idx → EReal) := out3' m ρ c
  have e6 : V10 m ρ c main_arg6 = (m ((c : Thread nD τ).loc main_arg6)) := arg6_10 m ρ c
  have e62 : V10 m ρ c main_v62 = (rowForm (d := 64) (m ((c : Thread nD τ).loc main_arg7)) : S1x64.Idx → EReal) := bias3 m ρ c
  refine (W11_arr m ρ c 3).trans ((Dense4.final (V10 m ρ) c).trans ?_)
  rw [e61, e6, e62]
  rfl

end Cert.KernelIdeal.Walk

end
-- ==== Proof.RefValue.lean ====
/-
  The reference's result is the forward function of its arguments.

  Stage by stage: each of its three `dot_general`s is a dense layer (the sum over the one contracted axis, read at
  an index); each bias is broadcast from a vector to one row and from that row to every row, which is the row form
  of the vector added to every row; each rectifier is the larger of its operand and a broadcast zero constant; and
  the gather–scale–scatter chains between them are the aggregation, by unfolding names only.
-/
import proofs.«109217_j85804856639970_1_alg».proof.Proof.Aggregate

noncomputable section

namespace Cert.Gcn.Ref

open Idealize.ShloMosaic Idealize.ShloMosaic.ValueIdx Cert.Gcn
open Cert.ReferenceIdeal Cert.ReferenceIdeal.ReadP

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal))
  (x6 : (⟨S64x64, .f32⟩ : BufTy).Contents (Elt Ideal)) (x7 : (⟨S64, .f32⟩ : BufTy).Contents (Elt Ideal))

/-- The first `dot_general` is the dense layer of the features and the first weights. -/
theorem dense1 : val_main_v30 (F := Ideal) x0 x2 = (dense x0 x2 : Tab 50000 128) := by
  funext i
  rw [val_main_v30_apply, dense_apply]
  refine Finset.sum_congr rfl fun k _ => ?_
  have el : lidx_main_v30 i k = ix2 (rowOf i) k := funext fun a => Fin.ext (by
    match a with
    | ⟨0, _⟩ => rfl
    | ⟨1, _⟩ => rfl)
  have er : ridx_main_v30 i k = ix2 k (colOf i) := funext fun a => Fin.ext (by
    match a with
    | ⟨0, _⟩ => rfl
    | ⟨1, _⟩ => rfl)
  rw [el, er]

/-- The first aggregation, by its names. -/
theorem agg1 : val_main_v43 (F := Ideal) x0 x1 x2 = agg128 x1 (val_main_v30 (F := Ideal) x0 x2) := rfl

/-- The first epilogue: the bias broadcast to every row, added, and rectified against a broadcast zero. -/
theorem epilogue1 : val_main_v47 (F := Ideal) x0 x1 x2 x3 = (biasRelu (val_main_v43 (F := Ideal) x0 x1 x2) (rowForm x3) : Tab 50000 128) := by
  funext i
  rw [val_main_v47_apply, val_main_v46_apply, val_main_v45_apply, val_main_v44_apply, val_main_call1_v0_apply,
    val_main_call1_cst_apply, biasRelu_apply]
  refine congrArg (fun z => max (val_main_v43 (F := Ideal) x0 x1 x2 i + x3 z) (Ideal.ofBits .f32 0x00000000#32)) ?_
  funext a
  apply Fin.ext
  match a with
  | ⟨0, _⟩ => rfl

/-- The second `dot_general` is the dense layer of the first layer's output and the second weights. -/
theorem dense2 : val_main_v48 (F := Ideal) x0 x1 x2 x3 x4 = (dense (val_main_v47 (F := Ideal) x0 x1 x2 x3) x4 : Tab 50000 64) := by
  funext i
  rw [val_main_v48_apply, dense_apply]
  refine Finset.sum_congr rfl fun k _ => ?_
  have el : lidx_main_v48 i k = ix2 (rowOf i) k := funext fun a => Fin.ext (by
    match a with
    | ⟨0, _⟩ => rfl
    | ⟨1, _⟩ => rfl)
  have er : ridx_main_v48 i k = ix2 k (colOf i) := funext fun a => Fin.ext (by
    match a with
    | ⟨0, _⟩ => rfl
    | ⟨1, _⟩ => rfl)
  rw [el, er]

/-- The second aggregation, by its names. -/
theorem agg2 : val_main_v61 (F := Ideal) x0 x1 x2 x3 x4 = agg64 x1 (val_main_v48 (F := Ideal) x0 x1 x2 x3 x4) := rfl

/-- The second epilogue. -/
theorem epilogue2 : val_main_v65 (F := Ideal) x0 x1 x2 x3 x4 x5 = (biasRelu (val_main_v61 (F := Ideal) x0 x1 x2 x3 x4) (rowForm x5) : Tab 50000 64) := by
  funext i
  rw [val_main_v65_apply, val_main_v64_apply, val_main_v63_apply, val_main_v62_apply, val_main_call2_v0_apply,
    val_main_call2_cst_apply, biasRelu_apply]
  refine congrArg (fun z => max (val_main_v61 (F := Ideal) x0 x1 x2 x3 x4 i + x5 z) (Ideal.ofBits .f32 0x00000000#32)) ?_
  funext a
  apply Fin.ext
  match a with
  | ⟨0, _⟩ => rfl

/-- The last `dot_general` and bias: the last layer. -/
theorem last : val_main_v69 (F := Ideal) x0 x1 x2 x3 x4 x5 x6 x7 = (denseBias (val_main_v65 (F := Ideal) x0 x1 x2 x3 x4 x5) x6 (rowForm x7) : Tab 50000 64) := by
  funext i
  rw [val_main_v69_apply, val_main_v68_apply, val_main_v67_apply, val_main_v66_apply, denseBias_apply]
  have hs : (∑ k : Fin 64, val_main_v65 (F := Ideal) x0 x1 x2 x3 x4 x5 (lidx_main_v66 i k) * x6 (ridx_main_v66 i k))
      = ∑ j : Fin 64, val_main_v65 (F := Ideal) x0 x1 x2 x3 x4 x5 (ix2 (rowOf i) j) * x6 (ix2 j (colOf i)) := by
    refine Finset.sum_congr rfl fun k _ => ?_
    have el : lidx_main_v66 i k = ix2 (rowOf i) k := funext fun a => Fin.ext (by
      match a with
      | ⟨0, _⟩ => rfl
      | ⟨1, _⟩ => rfl)
    have er : ridx_main_v66 i k = ix2 k (colOf i) := funext fun a => Fin.ext (by
      match a with
      | ⟨0, _⟩ => rfl
      | ⟨1, _⟩ => rfl)
    rw [el, er]
  have hb : x7 (idx_main_v67 (idx_main_v68 i)) = rowForm x7 (ix2 (0 : Fin 1) (colOf i)) := by
    refine congrArg x7 ?_
    funext a
    apply Fin.ext
    match a with
    | ⟨0, _⟩ => rfl
  show (∑ k : Fin 64, val_main_v65 (F := Ideal) x0 x1 x2 x3 x4 x5 (lidx_main_v66 i k) * x6 (ridx_main_v66 i k)) + x7 (idx_main_v67 (idx_main_v68 i)) = _
  rw [hs, hb]

/-- The reference's result, as a function of its arguments, is the forward function. -/
theorem result : val_main_v69 (F := Ideal) x0 x1 x2 x3 x4 x5 x6 x7 = forward x0 x1 x2 x3 x4 x5 x6 x7 := by
  rw [last, epilogue2, agg2, dense2, epilogue1, agg1, dense1]
  rfl

end Cert.Gcn.Ref

end
-- ==== Proof.lean ====
/-
  A two-layer graph convolution followed by a linear layer, on 50000 nodes: the kernel program against its
  reference, as extended reals.

  Both programs compute, from the features `x`, the edge list and the three weight–bias pairs,

      out = (relu (A (relu (A (x · W₁) + b₁) · W₂) + b₂)) · W₃ + b₃,

  where `A` gathers a table's rows at the messages' sources, scales each by its message's weight and adds them up at
  the targets. The kernel program computes the three matrix products and the two bias-and-rectify epilogues in five
  kernel regions, each over five blocks of 10000 rows, and leaves `A` (and the sources, targets and weights it needs)
  to host operations — the very operations the reference uses. So the proof never opens `A`: each region's result
  array is identified with its layer of the whole table (a block's matrix product read at an index is the plain sum
  over the shared axis; the narrower format the operands pass through is the identity on the extended reals; the
  five row blocks tile the table), each of the reference's `dot_general`s and broadcasts with the same layer, and the
  two results are one term, `Cert.Gcn.forward`, of the arguments. No step distributes or cancels, so the inputs'
  finiteness is never used.

  The three frames are the generated ones (the reference's is its run with the result dropped); the idealization
  rewrote nothing, so `preserves` asks nothing.
-/
import proofs.«109217_j85804856639970_1_alg».proof.Defs
import proofs.«109217_j85804856639970_1_alg».proof.Proof.Gen.Kernel
import proofs.«109217_j85804856639970_1_alg».proof.Proof.Gen.Kernel.Skeleton
import proofs.«109217_j85804856639970_1_alg».proof.Proof.Gen.Kernel.Launch
import proofs.«109217_j85804856639970_1_alg».proof.Proof.Gen.Kernel.Points
import proofs.«109217_j85804856639970_1_alg».proof.Proof.Gen.Kernel.Frame
import proofs.«109217_j85804856639970_1_alg».proof.Proof.Gen.KernelIdeal
import proofs.«109217_j85804856639970_1_alg».proof.Proof.Gen.KernelIdeal.Skeleton
import proofs.«109217_j85804856639970_1_alg».proof.Proof.Gen.KernelIdeal.Launch
import proofs.«109217_j85804856639970_1_alg».proof.Proof.Gen.KernelIdeal.Points
import proofs.«109217_j85804856639970_1_alg».proof.Proof.Gen.KernelIdeal.Frame
import proofs.«109217_j85804856639970_1_alg».proof.Proof.Gen.ReferenceIdeal
import proofs.«109217_j85804856639970_1_alg».proof.Proof.Gen.Pre_finite_inputs
import proofs.«109217_j85804856639970_1_alg».proof.Proof.RunPatched
import proofs.«109217_j85804856639970_1_alg».proof.Proof.ReadPatched
import proofs.«109217_j85804856639970_1_alg».proof.Proof.KernelRun
import proofs.«109217_j85804856639970_1_alg».proof.Proof.KernelValue
import proofs.«109217_j85804856639970_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the forward function of the arguments in their result buffer: the kernel program by the
    walk through its five regions, the reference by its stages; from memories that agree on the arguments these
    are the same array. -/
theorem algebraic : Cert.algebraic_KernelIdeal_ReferenceIdeal := by
  intro m ρ m' ρ' _ hagree
  refine ⟨fun c => Cert.Gcn.forward
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Walk.result m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7⟩ := hagree c
    rw [Cert.ReferenceIdeal.ReadP.val_main_v69_eq, Cert.Gcn.Ref.result, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
